-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x1024 : Shape := ⟨3, ![4, 256, 1024]⟩
abbrev S4x51200x1024 : Shape := ⟨3, ![4, 51200, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S4x51200x1024 : S_.BroadcastsInDim S4x51200x1024 (![] : Fin 0 → Fin S4x51200x1024.rank)
  reducesTo_S4x51200x1024_S_d0_1_2 : S4x51200x1024.ReducesTo [0, 1, 2] S_

variable [Facts]

def fn {F : FTy → Type} [FloatOps F] (main_arg0 : FVec F S4x256x1024 .f32) (main_arg1 : FVec F S4x51200x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S4x51200x1024 .f32 := Host.absf main_arg1
  let main_cst_0 : FVec F S_ .f32 := constant S_ .f32 0x7F800000#32
  let main_v5 : FVec F S4x51200x1024 .f32 := broadcastInDim S4x51200x1024 ![] bcast_S_S4x51200x1024 main_cst_0
  let main_v6 : IVec S4x51200x1024 1 := cmpf .olt main_v4 main_v5
  let main_c_1 : IVec S_ 1 := constantI S_ 1 1#1
  let main_v7 : IVec S_ 1 := (fun x v => Host.reduce IntOp.andi x v reducesTo_S4x51200x1024_S_d0_1_2 h_S_) main_v6 main_c_1
  let main_v8 : IVec S_ 1 := andi main_v3 main_v7
  main_v8
-- ==== Kernel.lean ====
abbrev S4x256x1024 : Shape := ⟨3, ![4, 256, 1024]⟩
abbrev S4x51200x1024 : Shape := ⟨3, ![4, 51200, 1024]⟩
abbrev S4x256x1 : Shape := ⟨3, ![4, 256, 1]⟩
abbrev S1x256x1024 : Shape := ⟨3, ![1, 256, 1024]⟩
abbrev S1x1024x1024 : Shape := ⟨3, ![1, 1024, 1024]⟩
abbrev S1x256x1 : Shape := ⟨3, ![1, 256, 1]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S4x256 : Shape := ⟨2, ![4, 256]⟩
abbrev S_ : Shape := ⟨0, ![]⟩
abbrev S1x1x16x16 : Shape := ⟨4, ![1, 1, 16, 16]⟩

abbrev nBuf : Space → Nat
  | .hbm => 13
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S4x51200x1024, .f32⟩
  | .hbm, ⟨2, _⟩ => ⟨S4x256x1, .f32⟩
  | .hbm, ⟨3, _⟩ => ⟨S4x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S1x1x16x16, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x256x1, .f32⟩
  | .local _ .vmem, ⟨5, _⟩ => ⟨S1x256x1, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  shapeCasts_S4x256x1_S4x256 : S4x256x1.ShapeCasts S4x256
  reducesTo_S4x256_S256_d0 : S4x256.ReducesTo [0] S256
  h_S_ : 0 < S_.numel
  bcast_S_S256 : S_.BroadcastsInDim S256 (![] : Fin 0 → Fin S256.rank)
  shapeCasts_S256_S1x1x16x16 : S256.ShapeCasts S1x1x16x16
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x256x1024.size a
  hwx0_0 : ∀ i : grid0.Coords, EltTy.bits .f32 = 32 ∨ (Rect.block (s := S4x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S4x51200x1024.size a
  hwx0_1 : ∀ i : grid0.Coords, EltTy.bits .f32 = 32 ∨ (Rect.block (s := S4x51200x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S4x256x1.size a
  hwx0_2 : ∀ i : grid0.Coords, EltTy.bits .f32 = 32 ∨ (Rect.block (s := S4x256x1) S1x256x1.size (cc0_transform_2 i) (hinb0_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S4x51200x1024 : Shape := ⟨3, ![4, 51200, 1024]⟩
abbrev S_ : Shape := ⟨0, ![]⟩
abbrev S4x256 : Shape := ⟨2, ![4, 256]⟩
abbrev S4x256x1 : Shape := ⟨3, ![4, 256, 1]⟩
abbrev S4x51200 : Shape := ⟨2, ![4, 51200]⟩
abbrev S4x51200x1 : Shape := ⟨3, ![4, 51200, 1]⟩
abbrev S4x256x51200 : Shape := ⟨3, ![4, 256, 51200]⟩
abbrev S256 : Shape := ⟨1, ![256]⟩
abbrev S1x1x16x16 : Shape := ⟨4, ![1, 1, 16, 16]⟩

abbrev nBuf : Space → Nat
  | .hbm => 34
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x51200x1024, .f32⟩
  | .hbm, ⟨2, _⟩ => ⟨S4x256x1024, .f32⟩
  | .hbm, ⟨3, _⟩ => ⟨S_, .f32⟩
  | .hbm, ⟨4, _⟩ => ⟨S4x256, .f32⟩
  | .hbm, ⟨5, _⟩ => ⟨S4x256x1, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S4x256x1024, .f32⟩
  | .hbm, ⟨11, _⟩ => ⟨S4x256x1024, .f32⟩
  | .hbm, ⟨12, _⟩ => ⟨S4x51200x1024, .f32⟩
  | .hbm, ⟨13, _⟩ => ⟨S_, .f32⟩
  | .hbm, ⟨14, _⟩ => ⟨S4x51200, .f32⟩
  | .hbm, ⟨15, _⟩ => ⟨S4x51200x1, .f32⟩
  | .hbm, ⟨16, _⟩ => ⟨S4x51200x1, .f32⟩
  | .hbm, ⟨17, _⟩ => ⟨S_, .f32⟩
  | .hbm, ⟨18, _⟩ => ⟨S4x51200x1, .f32⟩
  | .hbm, ⟨19, _⟩ => ⟨S4x51200x1, .f32⟩
  | .hbm, ⟨20, _⟩ => ⟨S4x51200x1024, .f32⟩
  | .hbm, ⟨21, _⟩ => ⟨S4x51200x1024, .f32⟩
  | .hbm, ⟨22, _⟩ => ⟨S4x256x51200, .f32⟩
  | .hbm, ⟨23, _⟩ => ⟨S_, .f32⟩
  | .hbm, ⟨24, _⟩ => ⟨S4x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S1x1x16x16, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  reducesTo_S4x256x1024_S4x256_d2 : S4x256x1024.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x1024_0_1_2 : S4x256x1.BroadcastsInDim S4x256x1024 (![0, 1, 2] : Fin 3 → Fin S4x256x1024.rank)
  reducesTo_S4x51200x1024_S4x51200_d2 : S4x51200x1024.ReducesTo [2] S4x51200
  bcast_S4x51200_S4x51200x1_0_1 : S4x51200.BroadcastsInDim S4x51200x1 (![0, 1] : Fin 2 → Fin S4x51200x1.rank)
  bcast_S_S4x51200x1 : S_.BroadcastsInDim S4x51200x1 (![] : Fin 0 → Fin S4x51200x1.rank)
  bcast_S4x51200x1_S4x51200x1024_0_1_2 : S4x51200x1.BroadcastsInDim S4x51200x1024 (![0, 1, 2] : Fin 3 → Fin S4x51200x1024.rank)
  reducesTo_S4x256x51200_S4x256_d2 : S4x256x51200.ReducesTo [2] S4x256
  reducesTo_S4x256_S256_d0 : S4x256.ReducesTo [0] S256
  bcast_S_S256 : S_.BroadcastsInDim S256 (![] : Fin 0 → Fin S256.rank)
  shapeCasts_S256_S1x1x16x16 : S256.ShapeCasts S1x1x16x16
  dot_S4x256x1024_S4x51200x1024_S4x256x51200_2_2_1_1_0_0_wf : DotDims.WF S4x256x1024 S4x51200x1024 S4x256x51200 [2] [2] [1] [1] [0] [0]

variable [Facts₀]

def dot_S4x256x1024_S4x51200x1024_S4x256x51200_2_2_1_1_0_0 : DotDims S4x256x1024 S4x51200x1024 S4x256x51200 where
  lhsContracting := [2]
  rhsContracting := [2]
  lhsNonContracting := [1]
  rhsNonContracting := [1]
  lhsBatch := [0]
  rhsBatch := [0]
  wf := dot_S4x256x1024_S4x51200x1024_S4x256x51200_2_2_1_1_0_0_wf

class Facts : Prop extends Facts₀ where

variable [Facts]
-- ==== Proof.CaseValues.lean ====
/-
  What each of the body's two cases leaves in the output block.

  At the first tile of a layer the body first overwrites the whole output block with −∞, reads it back, and stores the
  point's payload computed from that read-back; at every other tile it reads the block as the previous point left it
  and stores the payload computed from that. Either way the block ends as one covering store's value: the payload of
  the two input blocks and of what the block held when it was read.
-/
import proofs.«154629_j24060406792290_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem hz : (![0, 0, 0] : Fin 3 → Nat) = fun _ => 0 := funext fun a => by fin_cases a <;> rfl

/-- A LATER TILE: the block ends at the payload of the input blocks and of what it held before. -/
theorem out_B (c : Dev nD) (i : grid0.Coords) (a2 : Memref sig .tc .vmem S1x256x1024 .f32) (h2 : a2.IsWhole)
    (a3 : Memref sig .tc .vmem S1x1024x1024 .f32) (h3 : a3.IsWhole) (a4 : Memref sig .tc .vmem S1x256x1 .f32) (h4 : a4.IsWhole)
    (hc : ¬cond0_0 i) (x0 : Vec F S1x256x1024 .f32) (x1 : Vec F S1x1024x1024 .f32) (xo : Vec F S1x256x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S1x256x1024) hz,
    View.ld_unit_zero (S := S1x1024x1024) hz, View.ld_unit_zero (S := S1x256x1) hz]

/-- A LAYER'S FIRST TILE: the block ends at the payload of the input blocks and of the −∞ block it was reset to. -/
theorem out_A (c : Dev nD) (i : grid0.Coords) (a2 : Memref sig .tc .vmem S1x256x1024 .f32) (h2 : a2.IsWhole)
    (a3 : Memref sig .tc .vmem S1x1024x1024 .f32) (h3 : a3.IsWhole) (a4 : Memref sig .tc .vmem S1x256x1 .f32) (h4 : a4.IsWhole)
    (hc : cond0_0 i) (x0 : Vec F S1x256x1024 .f32) (x1 : Vec F S1x1024x1024 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x1) hz, View.readCov_unit_zero (S := S1x256x1) _ hz]
  simp only [View.readAt_eq_ld, h2.read_unread, h3.read_unread, View.ld_unit_zero (S := S1x256x1024) hz,
    View.ld_unit_zero (S := S1x1024x1024) hz]

end Cert.KernelIdeal.CaseValues

end
-- ==== Proof.Cosine.lean ====
/-
  Nearest neighbour by cosine similarity: what both programs compute, as one function of the two argument arrays.

  The queries `Q` are 4 layers of 256 rows of 1024 numbers, the gallery `G` 4 layers of 51200 such rows. A row's
  length is the square root of the sum of its squares, floored at a small positive constant so that a zero row divides
  by the floor and not by zero; a row divided entry by entry by its floored length is the row at unit length; the
  similarity of two rows is the sum over the 1024 coordinates of the products of their unit-length entries; and the
  score of query `(l, r)` is the largest similarity to any gallery row of the same layer, a maximum started from −∞.
  All of it is over the extended reals, where a sum, a product and a maximum of any values are defined.
-/
import Idealize.ShloMosaic.PureOps.Ideal.Laws
import Idealize.ShloMosaic.Lib.ValueIdx

noncomputable section

open scoped BigOperators

namespace Cert.Cosine

open Idealize.ShloMosaic Idealize.ShloMosaic.ValueIdx

/-- The floor under a row's length: the f32 nearest to 10⁻⁸. -/
abbrev floor : EReal := Ideal.ofBits .f32 0x322BCC77#32

/-- Where a maximum starts: the f32 pattern of −∞. -/
abbrev start : EReal := Ideal.ofBits .f32 0xFF800000#32

/-- A row's length, floored: `max (√(∑ x²)) floor`. -/
def len {D : ℕ} (row : Fin D → EReal) : EReal := max (Ideal.sqrt (∑ k, row k * row k)) floor

/-- Entry `d` of the row brought to unit length. -/
def unit {D : ℕ} (row : Fin D → EReal) (d : Fin D) : EReal := Ideal.div (row d) (len row)

/-- The cosine similarity of two rows: the inner product of their unit-length forms. -/
def cosine {D : ℕ} (u v : Fin D → EReal) : EReal := ∑ d, unit u d * unit v d

/-- Row `r` of layer `l` of the queries, -/
def qrow (Q : (⟨3, ![4, 256, 1024]⟩ : Shape).Idx → EReal) (l : Fin 4) (r : Fin 256) : Fin 1024 → EReal :=
  fun d => Q (ix3 l r d)

/-- and row `j` of layer `l` of the gallery. -/
def grow (G : (⟨3, ![4, 51200, 1024]⟩ : Shape).Idx → EReal) (l : Fin 4) (j : Fin 51200) : Fin 1024 → EReal :=
  fun d => G (ix3 l j d)

/-- The similarities of query `(l, r)` to the gallery rows of its layer. -/
def sims (Q : (⟨3, ![4, 256, 1024]⟩ : Shape).Idx → EReal) (G : (⟨3, ![4, 51200, 1024]⟩ : Shape).Idx → EReal)
    (l : Fin 4) (r : Fin 256) : Fin 51200 → EReal :=
  fun j => cosine (qrow Q l r) (grow G l j)

/-- THE SCORE of query `(l, r)`: its largest similarity, from −∞. -/
def best (Q : (⟨3, ![4, 256, 1024]⟩ : Shape).Idx → EReal) (G : (⟨3, ![4, 51200, 1024]⟩ : Shape).Idx → EReal)
    (l : Fin 4) (r : Fin 256) : EReal :=
  Finset.univ.fold max start (sims Q G l r)

/-- The scores laid out as the 4 × 256 × 1 array of columns, one column per layer, -/
def bestColumn (Q : (⟨3, ![4, 256, 1024]⟩ : Shape).Idx → EReal) (G : (⟨3, ![4, 51200, 1024]⟩ : Shape).Idx → EReal) :
    (⟨3, ![4, 256, 1]⟩ : Shape).Idx → EReal :=
  fun i => best Q G (i 0) (i 1)

/-- and as the 4 × 256 table. -/
def bestTable (Q : (⟨3, ![4, 256, 1024]⟩ : Shape).Idx → EReal) (G : (⟨3, ![4, 51200, 1024]⟩ : Shape).Idx → EReal) :
    (⟨2, ![4, 256]⟩ : Shape).Idx → EReal :=
  fun i => best Q G (i 0) (i 1)

end Cert.Cosine

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  A matrix reduced along its rows.

  At the ideal values a reduction of an `[a, b]` matrix over its second axis, read at row `p`, ranges over the `b`
  entries of that row: a sum is `∑ k, x (p, k)`, a maximum is the maximum of the `x (p, k)` started from the value the
  accumulator's pattern denotes. Both are the library's one-axis readings with the inserted index written by its
  coordinates `(p, k)`. General in the two extents and the element type.
-/
import Idealize.ShloMosaic.PureOps.Ideal.Laws
import Idealize.ShloMosaic.Lib.ValueIdx

noncomputable section

open scoped BigOperators

namespace Cert.LibRowReduce

open Idealize.ShloMosaic Idealize.ShloMosaic.ValueIdx

variable {a b : ℕ} {φ : FTy}

/-- Row `p` with the column `k` put back on the reduced axis is the entry `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the rows, at row `p`. -/
theorem sum_rows_apply (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) :=
  (Ideal.multiReduction_add_single x acc h hφ hacc (ix1 p)).trans
    (Finset.sum_congr rfl fun k _ => congrArg x (lift_row h p k))

/-- A maximum along the rows, at row `p`: from the accumulator's value, over the row's entries. -/
theorem max_rows_apply (x : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ x acc h hφ hacc (ix1 p)
      = (Finset.univ : Finset (Fin b)).fold max (Ideal.ofBits φ acc) (fun k => x (ix2 p k)) :=
  (Ideal.multiReduction_maximumf_single x acc h hφ hacc (ix1 p)).trans
    (congrArg ((Finset.univ : Finset (Fin b)).fold max (Ideal.ofBits φ acc)) (funext fun k => congrArg x (lift_row h p k)))

end Cert.LibRowReduce

end
-- ==== Proof.UnitRows.lean ====
/-
  The rows of a matrix brought to unit length, as the kernel computes them.

  The kernel squares an `[a, b]` matrix entry by entry, sums each row, writes the sums as a column, takes the square
  root, floors the column at the small constant, repeats the column across the `b` columns and divides the matrix by
  it. Read at `(p, k)` that is entry `k` of row `p` divided by the row's floored length: `Cosine.unit` of the row.
  General in the two extents, so it serves the block of queries and the tile of gallery rows alike.
-/
import proofs.«154629_j24060406792290_1_alg».proof.Proof.Cosine
import proofs.«154629_j24060406792290_1_alg».proof.Proof.LibColumn
import proofs.«154629_j24060406792290_1_alg».proof.Proof.LibRowReduce

noncomputable section

open scoped BigOperators

namespace Cert.UnitRows

open Idealize.ShloMosaic Idealize.ShloMosaic.ValueIdx

variable {a b : ℕ}

/-- Entry `(p, k)` of the matrix divided by its rows' floored lengths is `Cosine.unit` of row `p` at `k`. -/
theorem unit_rows_apply (x : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (k : Fin b) :
    divf x (broadcastTo ⟨2, ![a, b]⟩
        (maximumf (sqrt (shapeCast ⟨2, ![a, 1]⟩ (multiReduction .add [1] ⟨1, ![a]⟩ (mulf x x) 0x00000000#32 h hφ hacc) hc))
          (broadcast ⟨2, ![a, 1]⟩ (Scalar.ofBits .f32 0x322BCC77#32 : Ideal .f32))) hb) (ix2 p k)
      = Cosine.unit (fun d => x (ix2 p d)) k := by
  show Ideal.div (x (ix2 p k)) _ = Ideal.div (x (ix2 p k)) _
  refine congrArg (Ideal.div (x (ix2 p k))) ?_
  refine (LibColumn.broadcastTo_a1_ab_apply _ hb p k).trans ?_
  show max (Ideal.sqrt (shapeCast ⟨2, ![a, 1]⟩ _ hc (ix2 p (0 : Fin 1)))) _ = max (Ideal.sqrt (∑ d, x (ix2 p d) * x (ix2 p d))) Cosine.floor
  rw [LibColumn.shapeCast_a_a1_apply _ hc p 0, LibRowReduce.sum_rows_apply]
  rfl

end Cert.UnitRows

end
-- ==== Proof.LibDotRows.lean ====
import Idealize.ShloMosaic.PureOps.Ideal.Laws
import Idealize.ShloMosaic.Lib.ValueIdx

noncomputable section

open scoped BigOperators

/-! # A product of rows by rows, read at an index

A block product `[M,K] · [P,K]ᵀ`: both operands contract their SECOND axis, there is no batch axis, and the result's
two axes are the operands' first axes. At the ideal values, accumulated into the zero splat, its entry `(p, q)` is
`∑ k, l (p, k) * r (q, k)`. The dimension numbers are a parameter: the statement holds for every record of that form. -/

namespace Cert.LibDotRows

open Idealize.ShloMosaic Idealize.ShloMosaic.ValueIdx

variable {M K P : Nat} (d : DotDims ⟨2, ![M, K]⟩ ⟨2, ![P, K]⟩ ⟨2, ![M, P]⟩)

/-- The dimension numbers of a product of rows by rows: each operand contracts its second axis and keeps its first;
    no batch axes. -/
structure RowsByRows : Prop where
  lc : d.lhsContracting = [1]
  rc : d.rhsContracting = [1]
  ln : d.lhsNonContracting = [0]
  rn : d.rhsNonContracting = [0]
  lb : d.lhsBatch = []
  rb : d.rhsBatch = []

variable {d}

/-- The left operand's row is the result's row. -/
theorem lhsIdx_row (h : RowsByRows d) (j : (⟨2, ![M, P]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < 2) (hb : b < 2), a = b → (j ⟨a, ha⟩).val = (j ⟨b, hb⟩).val :=
    fun a b ha hb e => by subst e; rfl
  exact key _ 0 _ (by omega) (by simp [h.lb, h.ln])

/-- The right operand's row is the result's column. -/
theorem rhsIdx_row (h : RowsByRows d) (j : (⟨2, ![M, P]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < 2) (hb : b < 2), a = b → (j ⟨a, ha⟩).val = (j ⟨b, hb⟩).val :=
    fun a b ha hb e => by subst e; rfl
  exact key _ 1 _ (by omega) (by simp [h.lb, h.ln, h.rn])

theorem contr_rank (h : RowsByRows d) : d.contr.rank = 1 := by rw [d.rank_contr, h.lc]; rfl

theorem contr_size (h : RowsByRows d) : d.contr.size ⟨0, by rw [contr_rank h]; exact Nat.one_pos⟩ = K := by
  rw [d.size_contr 0 (by rw [h.lc]; exact Nat.one_pos)]
  simp [h.lc]

/-- THE PRODUCT AT AN ENTRY: row `p` of the left operand against row `q` of the right one. -/
theorem matmul_rows_apply (h : RowsByRows d) {φ₁ φ₂ : FTy} (prec : Option ContractPrecision)
    (lhs : FVec Ideal ⟨2, ![M, K]⟩ φ₁) (rhs : FVec Ideal ⟨2, ![P, K]⟩ φ₂) (p : Fin M) (q : Fin P) :
    FloatOps.matmul d prec lhs rhs (constant (F := Ideal) ⟨2, ![M, P]⟩ .f32 0x00000000#32) (ix2 p q)
      = ∑ k : Fin K, lhs (ix2 p k) * rhs (ix2 q k) := by
  rw [Ideal.matmul_constant_zero_apply, ← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhsIdx_row h _ _
      | ⟨1, _⟩ => exact (d.lhsIdx_val_of_single h.lc _ _).trans hk)
  have er : d.rhsIdx (ix2 p q) ((contrEquiv1 d K (contr_rank h) (contr_size h)).symm k) = ix2 q k :=
    funext fun a => Fin.ext (by
      match a with
      | ⟨0, _⟩ => exact rhsIdx_row h _ _
      | ⟨1, _⟩ => exact (d.rhsIdx_val_of_single h.rc _ _).trans hk)
  rw [el, er]

end Cert.LibDotRows

end
-- ==== Proof.TileScore.lean ====
/-
  What one grid point adds to a query's score.

  At a grid point the kernel holds one layer's 256 queries and a tile of 1024 gallery rows of the same layer. It brings
  both to unit length row by row, multiplies the queries by the transposed tile (so entry `(r, j)` is the cosine
  similarity of query `r` and tile row `j`), takes each query's largest similarity over the tile from −∞, and stores
  the larger of that and the score the output block held before. Read at query `r`: the block's new entry is
  `max (previous entry) (the maximum from −∞ over the tile's 1024 rows of the cosine similarity)`.
-/
import proofs.«154629_j24060406792290_1_alg».proof.Proof.Gen.KernelIdeal.Skeleton
import proofs.«154629_j24060406792290_1_alg».proof.Proof.UnitRows
import proofs.«154629_j24060406792290_1_alg».proof.Proof.LibDotRows
import Idealize.ShloMosaic.Lib.ValueLayout
import Idealize.ShloMosaic.Lib.Pipeline.Value

noncomputable section

open scoped BigOperators

namespace Cert.KernelIdeal.TileScore

open Cert.KernelIdeal Cert.KernelIdeal.Gen Idealize.ShloMosaic Idealize.ShloMosaic.ValueIdx

/-- The kernel's product contracts the second axis of both operands: queries' rows against tile rows. -/
theorem rowsByRows : Cert.LibDotRows.RowsByRows dot_S256x1024_S1024x1024_S256x1024_1_1_0_0_n_n :=
  ⟨rfl, rfl, rfl, rfl, rfl, rfl⟩

/-- The tile's similarities to query `r`: the cosine of the query's row and each of the tile's rows. -/
def tileSims (x0 : FVec Ideal S1x256x1024 .f32) (x1 : FVec Ideal S1x1024x1024 .f32) (r : Fin 256) : Fin 1024 → EReal :=
  fun j => Cosine.cosine (fun d => x0 (ix3 (0 : Fin 1) r d)) (fun d => x1 (ix3 (0 : Fin 1) j d))

/-- THE POINT'S STORE at query `r`: the larger of the block's previous entry and the tile's best similarity. -/
theorem pay2_apply (x0 : FVec Ideal S1x256x1024 .f32) (x1 : FVec Ideal S1x1024x1024 .f32) (prev : FVec Ideal S1x256x1 .f32)
    (r : Fin 256) :
    k0_pay2 (F := Ideal) x0 x1 prev (ix3 (0 : Fin 1) r (0 : Fin 1))
      = max (prev (ix3 (0 : Fin 1) r (0 : Fin 1))) ((Finset.univ : Finset (Fin 1024)).fold max Cosine.start (tileSims x0 x1 r)) := by
  unfold k0_pay2
  refine (shapeCast_ab_1ab_apply _ _ (0 : Fin 1) r (0 : Fin 1)).trans ?_
  refine congrArg₂ max ?_ ?_
  · exact shapeCast_1ab_ab_apply prev _ r (0 : Fin 1)
  · refine (Cert.LibColumn.shapeCast_a_a1_apply _ _ r (0 : Fin 1)).trans ?_
    refine (Cert.LibRowReduce.max_rows_apply _ _ _ _ _ r).trans ?_
    refine congrArg ((Finset.univ : Finset (Fin 1024)).fold max Cosine.start) (funext fun j => ?_)
    refine (Cert.LibDotRows.matmul_rows_apply rowsByRows none _ _ r j).trans ?_
    show _ = ∑ d : Fin 1024, Cosine.unit (fun e => x0 (ix3 (0 : Fin 1) r e)) d * Cosine.unit (fun e => x1 (ix3 (0 : Fin 1) j e)) d
    refine Finset.sum_congr rfl fun d _ => ?_
    refine congrArg₂ (· * ·) ?_ ?_
    · refine (Cert.UnitRows.unit_rows_apply _ _ _ _ _ _ r d).trans ?_
      exact congrArg (fun row => Cosine.unit row d) (funext fun e => shapeCast_1ab_ab_apply x0 _ r e)
    · refine (Cert.UnitRows.unit_rows_apply _ _ _ _ _ _ j d).trans ?_
      exact congrArg (fun row => Cosine.unit row d) (funext fun e => shapeCast_1ab_ab_apply x1 _ j e)

/-- The reset block: −∞ at every query. -/
theorem pay1_apply (i : S1x256x1.Idx) : k0_pay1 (F := Ideal) i = Cosine.start := by
  unfold k0_pay1
  rfl

end Cert.KernelIdeal.TileScore

end
-- ==== Proof.LibTiledMax.lean ====
/-
  A maximum taken tile by tile.

  The maximum of a family `f : Fin n → α` over a linear order, started from a value `b`, may be taken all at once
  or by running through consecutive tiles of indices and keeping the larger of what was found so far and the tile's own
  maximum (each tile's maximum started from the same `b`). `maxBelow b f K` is the maximum over the indices below
  `K`; adding a tile of width `w` to it is one `max` with the tile's maximum. Nothing here depends on the family's
  values, on `b` being a least element, or on the tiles having one width: a maximum is characterised by the values
  lying above it, and the two sides lie below the same ones.
-/
import Mathlib.Data.Finset.Fold
import Mathlib.Data.Fintype.Basic
import Mathlib.Data.Fintype.Fin
import Mathlib.Tactic

namespace Cert.LibTiledMax

variable {α : Type} [LinearOrder α] {n : ℕ}

/-- The maximum, from `b`, of `f` over the indices below `K`. -/
def maxBelow (b : α) (f : Fin n → α) (K : ℕ) : α :=
  (Finset.univ.filter fun j : Fin n => j.val < K).fold max b f

/-- What lies above it: `b` and every entry of index below `K`. -/
theorem maxBelow_le_iff (b : α) (f : Fin n → α) (K : ℕ) (c : α) :
    maxBelow b f K ≤ c ↔ b ≤ c ∧ ∀ j : Fin n, j.val < K → f j ≤ c := by
  unfold maxBelow
  rw [Finset.fold_max_le]
  simp only [Finset.mem_filter, Finset.mem_univ, true_and]

/-- Below no index there is only the starting value. -/
theorem maxBelow_zero (b : α) (f : Fin n → α) : maxBelow b f 0 = b :=
  eq_of_forall_ge_iff fun c => by
    rw [maxBelow_le_iff]
    exact ⟨fun h => h.1, fun h => ⟨h, fun j hj => absurd hj (Nat.not_lt_zero _)⟩⟩

/-- Below a bound that every index meets it is the maximum over all of them. -/
theorem maxBelow_of_le (b : α) (f : Fin n → α) {K : ℕ} (h : n ≤ K) :
    maxBelow b f K = Finset.univ.fold max b f :=
  eq_of_forall_ge_iff fun c => by
    rw [maxBelow_le_iff, Finset.fold_max_le]
    exact ⟨fun hc => ⟨hc.1, fun j _ => hc.2 j (lt_of_lt_of_le j.isLt h)⟩, fun hc => ⟨hc.1, fun j _ => hc.2 j (Finset.mem_univ _)⟩⟩

/-- ONE MORE TILE: the maximum below `K + w` is the larger of the maximum below `K` and the maximum, from the same
    `b`, of the `w` entries from `K` on. -/
theorem maxBelow_add (b : α) (f : Fin n → α) (K w : ℕ) (hK : K + w ≤ n) :
    maxBelow b f (K + w)
      = max (maxBelow b f K) (Finset.univ.fold max b fun j : Fin w => f ⟨K + j.val, lt_of_lt_of_le (Nat.add_lt_add_left j.isLt K) hK⟩) :=
  eq_of_forall_ge_iff fun c => by
    rw [max_le_iff, maxBelow_le_iff, maxBelow_le_iff, Finset.fold_max_le]
    constructor
    · intro h
      exact ⟨⟨h.1, fun j hj => h.2 j (by omega)⟩, h.1, fun j _ => h.2 _ (by show K + j.val < K + w; have := j.isLt; omega)⟩
    · intro h
      refine ⟨h.1.1, fun j hj => ?_⟩
      by_cases hlt : j.val < K
      · exact h.1.2 j hlt
      · have e : j = ⟨K + (⟨j.val - K, by omega⟩ : Fin w).val, by show K + (j.val - K) < n; have := j.isLt; omega⟩ :=
          Fin.ext (by show j.val = K + (j.val - K); omega)
        rw [e]
        exact h.2.2 ⟨j.val - K, by omega⟩ (Finset.mem_univ _)

end Cert.LibTiledMax
-- ==== Proof.RunningBest.lean ====
/-
  The output block, point by point, is the best similarity so far.

  The grid runs through the layers and, within a layer, through the gallery's 50 tiles of 1024 rows. At point `t` the
  layer is `t / 50` and the tile `t % 50`; the queries' block is the layer's 256 rows, the gallery's block the rows
  `1024·(t % 50) …` of the layer. The output block is reset at a layer's first tile and otherwise carried over, and
  each point puts into it the larger of what it held and the tile's best similarity. So after point `t` the block's
  entry for query `r` is the maximum, from −∞, of the layer's similarities to `r` over the gallery rows below
  `1024·(t % 50) + 1024`: by induction on the point, a tile at a time.
-/
import proofs.«154629_j24060406792290_1_alg».proof.Proof.CaseValues
import proofs.«154629_j24060406792290_1_alg».proof.Proof.TileScore
import proofs.«154629_j24060406792290_1_alg».proof.Proof.LibTiledMax

noncomputable section

namespace Cert.KernelIdeal.RunningBest

open Cert.KernelIdeal Cert.KernelIdeal.Gen Idealize.ShloMosaic Idealize.ShloMosaic.TcCoe Idealize.SL.Sem
open Idealize.ShloMosaic.ValueIdx Cert.LibTiledMax

variable (m : (ℓ : Loc nD τ sig) → Buf (Elt Ideal) ℓ)

/-- The queries and the gallery as the region finds them on core `c`. -/
abbrev Q (c : Dev nD) : S4x256x1024.Idx → EReal := m ((c : Thread nD τ).loc main_arg0)
abbrev G (c : Dev nD) : S4x51200x1024.Idx → EReal := m ((c : Thread nD τ).loc main_arg1)

/-- The printed index maps over the grid: every window's layer is `t / 50`, the gallery's tile is `t % 50`, and the
    other block indices are zero. -/
theorem idx_facts : ∀ t : Fin cfg0.N,
    win0_0.index t (0 : Fin 3) = t.val / 50 ∧ win0_0.index t (1 : Fin 3) = 0 ∧ win0_0.index t (2 : Fin 3) = 0
    ∧ win0_1.index t (0 : Fin 3) = t.val / 50 ∧ win0_1.index t (1 : Fin 3) = t.val % 50 ∧ win0_1.index t (2 : Fin 3) = 0
    ∧ win0_2.index t (0 : Fin 3) = t.val / 50 ∧ win0_2.index t (1 : Fin 3) = 0 ∧ win0_2.index t (2 : Fin 3) = 0 :=
  (by decide +kernel : ∀ t : Fin grid0.N, _)

/-- The queries' block at point `t` is layer `t / 50` of the queries. -/
theorem qblock_apply (c : Dev nD) (t : Fin cfg0.N) (l : Fin 4) (hl : l.val = t.val / 50) (r : Fin 256) (d : Fin 1024) :
    (iblk m c 0 t : FVec Ideal S1x256x1024 .f32) (ix3 (0 : Fin 1) r d) = Q m c (ix3 l r d) := by
  obtain ⟨e0, e1, e2, -⟩ := idx_facts t
  unfold iblk
  rw [View.read_apply]
  show V m c main_arg0 _ = _
  refine congrArg (m ((c : Thread nD τ).loc main_arg0)) (funext fun a => Fin.ext ?_)
  match a with
  | ⟨0, _⟩ => show win0_0.index t (0 : Fin 3) * 1 + 1 * (0 : Fin 1).val = l.val; rw [e0, hl]; simp
  | ⟨1, _⟩ => show win0_0.index t (1 : Fin 3) * 256 + 1 * r.val = r.val; rw [e1]; omega
  | ⟨2, _⟩ => show win0_0.index t (2 : Fin 3) * 1024 + 1 * d.val = d.val; rw [e2]; omega

/-- The gallery's block at point `t` is rows `1024·(t % 50) + j` of layer `t / 50` of the gallery. -/
theorem gblock_apply (c : Dev nD) (t : Fin cfg0.N) (l : Fin 4) (hl : l.val = t.val / 50) (j : Fin 1024) (d : Fin 1024)
    (hj : 1024 * (t.val % 50) + j.val < 51200) :
    (iblk m c 1 t : FVec Ideal S1x1024x1024 .f32) (ix3 (0 : Fin 1) j d) = G m c (ix3 l ⟨1024 * (t.val % 50) + j.val, hj⟩ d) := by
  obtain ⟨-, -, -, e0, e1, e2, -⟩ := idx_facts t
  unfold iblk
  rw [View.read_apply]
  show V m c main_arg1 _ = _
  refine congrArg (m ((c : Thread nD τ).loc main_arg1)) (funext fun a => Fin.ext ?_)
  match a with
  | ⟨0, _⟩ => show win0_1.index t (0 : Fin 3) * 1 + 1 * (0 : Fin 1).val = l.val; rw [e0, hl]; simp
  | ⟨1, _⟩ => show win0_1.index t (1 : Fin 3) * 1024 + 1 * j.val = 1024 * (t.val % 50) + j.val; rw [e1]; omega
  | ⟨2, _⟩ => show win0_1.index t (2 : Fin 3) * 1024 + 1 * d.val = d.val; rw [e2]; omega

/-- So the tile's similarities at point `t` are the layer's similarities from row `1024·(t % 50)` on. -/
theorem tile_eq (c : Dev nD) (t : Fin cfg0.N) (l : Fin 4) (hl : l.val = t.val / 50) (r : Fin 256) (j : Fin 1024)
    (hj : 1024 * (t.val % 50) + j.val < 51200) :
    TileScore.tileSims (iblk m c 0 t) (iblk m c 1 t) r j
      = Cosine.sims (Q m c) (G m c) l r ⟨1024 * (t.val % 50) + j.val, hj⟩ := by
  show Cosine.cosine _ _ = Cosine.cosine (Cosine.qrow (Q m c) l r) (Cosine.grow (G m c) l ⟨1024 * (t.val % 50) + j.val, hj⟩)
  exact congrArg₂ Cosine.cosine (funext fun d => qblock_apply m c t l hl r d) (funext fun d => gblock_apply m c t l hl j d hj)

/-- ONE POINT: if the block held the best similarity over the rows below the tile, it ends holding the best over the
    rows through the tile. -/
theorem step (c : Dev nD) (t : Fin cfg0.N) (l : Fin 4) (hl : l.val = t.val / 50) (r : Fin 256) (prev : FVec Ideal S1x256x1 .f32)
    (hprev : prev (ix3 (0 : Fin 1) r (0 : Fin 1)) = maxBelow Cosine.start (Cosine.sims (Q m c) (G m c) l r) (1024 * (t.val % 50))) :
    k0_pay2 (F := Ideal) (iblk m c 0 t) (iblk m c 1 t) prev (ix3 (0 : Fin 1) r (0 : Fin 1))
      = maxBelow Cosine.start (Cosine.sims (Q m c) (G m c) l r) (1024 * (t.val % 50) + 1024) := by
  have hK : 1024 * (t.val % 50) + 1024 ≤ 51200 := by omega
  rw [maxBelow_add _ _ _ 1024 hK, ← hprev]
  refine (TileScore.pay2_apply (iblk m c 0 t) (iblk m c 1 t) prev r).trans ?_
  refine congrArg (max (prev (ix3 (0 : Fin 1) r (0 : Fin 1)))) ?_
  exact congrArg ((Finset.univ : Finset (Fin 1024)).fold max Cosine.start)
    (funext fun j => tile_eq m c t l hl r j (lt_of_lt_of_le (Nat.add_lt_add_left j.isLt _) hK))

/-- At a layer's first tile the block is the point's payload over the −∞ block, -/
theorem atFirst (c : Dev nD) (t : Fin cfg0.N) (h0 : t.val % 50 = 0) :
    outsAt0 m c t.val t.isLt = k0_pay2 (iblk m c 0 t) (iblk m c 1 t) (k0_pay1 (F := Ideal)) :=
  (outsAt0_A m c t h0).trans
    (CaseValues.out_A c (grid0.coords t) (ms0_0 t) (hs0_0 t) (ms0_1 t) (hs0_1 t) (ms0_2 t) (hs0_2 t) ((hcond0_0 t).mpr h0)
      (iblk m c 0 t) (iblk m c 1 t))

/-- and at a later tile the payload over what the point before left. -/
theorem atLater (c : Dev nD) (t : Fin cfg0.N) (h0 : ¬t.val % 50 = 0) :
    outsAt0 m c t.val t.isLt
      = k0_pay2 (iblk m c 0 t) (iblk m c 1 t) (outsAt0 m c (t.val - 1) (Nat.lt_of_le_of_lt (Nat.sub_le _ _) t.isLt)) :=
  (outsAt0_B m c t h0).trans
    (CaseValues.out_B c (grid0.coords t) (ms0_0 t) (hs0_0 t) (ms0_1 t) (hs0_1 t) (ms0_2 t) (hs0_2 t) (fun h => h0 ((hcond0_0 t).mp h))
      (iblk m c 0 t) (iblk m c 1 t) (outsAt0 m c (t.val - 1) (Nat.lt_of_le_of_lt (Nat.sub_le _ _) t.isLt)))

/-- THE BLOCK AFTER POINT `n`: query `r`'s best similarity in layer `n / 50` over the gallery rows below
    `1024·(n % 50) + 1024`. -/
theorem running (c : Dev nD) : ∀ (n : ℕ) (hn : n < cfg0.N) (l : Fin 4) (hl : l.val = n / 50) (r : Fin 256),
    outsAt0 m c n hn (ix3 (0 : Fin 1) r (0 : Fin 1))
      = maxBelow Cosine.start (Cosine.sims (Q m c) (G m c) l r) (1024 * (n % 50) + 1024)
  | 0, hn, l, hl, r => by
    refine (congrFun (atFirst m c ⟨0, hn⟩ rfl) _).trans ?_
    refine step m c ⟨0, hn⟩ l hl r _ ?_
    rw [TileScore.pay1_apply]
    exact (maxBelow_zero _ _).symm
  | n + 1, hn, l, hl, r => by
    by_cases h0 : (n + 1) % 50 = 0
    · refine (congrFun (atFirst m c ⟨n + 1, hn⟩ h0) _).trans ?_
      refine step m c ⟨n + 1, hn⟩ l hl r _ ?_
      rw [TileScore.pay1_apply]
      show _ = maxBelow _ _ (1024 * ((n + 1) % 50))
      rw [h0, Nat.mul_zero]
      exact (maxBelow_zero _ _).symm
    · refine (congrFun (atLater m c ⟨n + 1, hn⟩ h0) _).trans ?_
      refine step m c ⟨n + 1, hn⟩ l hl r _ ?_
      show outsAt0 m c n _ _ = maxBelow _ _ (1024 * ((n + 1) % 50))
      have e : 1024 * ((n + 1) % 50) = 1024 * (n % 50) + 1024 := by omega
      rw [e]
      exact running c n (Nat.lt_of_succ_lt hn) l (by omega) r

end Cert.KernelIdeal.RunningBest

end
-- ==== Proof.FinalArray.lean ====
/-
  The output array after the run: every query's score.

  The output window's block is the layer's 256 × 1 column, and its index moves only with the layer, so a block is
  written back once per layer, after the layer's last tile (the points `t` with `t % 50 = 49`). By then the block holds
  each query's best similarity over all 50 tiles, that is over the layer's whole gallery. The four columns written back
  fill the 4 × 256 × 1 array: the entry `(l, r, 0)` is in the block of the point `50·l + 49`.
-/
import proofs.«154629_j24060406792290_1_alg».proof.Proof.RunningBest
import Idealize.ShloMosaic.Lib.Pipeline.Value

noncomputable section

namespace Cert.KernelIdeal.FinalArray

open Cert.KernelIdeal Cert.KernelIdeal.Gen Idealize.ShloMosaic Idealize.ShloMosaic.TcCoe Idealize.SL.Sem
open Idealize.ShloMosaic.ValueIdx Cert.LibTiledMax Cert.KernelIdeal.RunningBest
open Idealize.ShloMosaic.Pipeline (Dat)

variable (m : (ℓ : Loc nD τ sig) → Buf (Elt Ideal) ℓ)

/-- Two 1 × 256 × 1 blocks that agree at every `(0, r, 0)` are equal. -/
theorem column_ext (f g : S1x256x1.Idx → EReal) (h : ∀ r : Fin 256, f (ix3 (0 : Fin 1) r (0 : Fin 1)) = g (ix3 (0 : Fin 1) r (0 : Fin 1))) :
    f = g := by
  funext y
  obtain ⟨u, r, v, rfl⟩ : ∃ (u : Fin 1) (r : Fin 256) (v : Fin 1), y = ix3 u r v := ⟨y 0, y 1, y 2, eq_ix3 y⟩
  obtain rfl : u = 0 := Subsingleton.elim _ _
  obtain rfl : v = 0 := Subsingleton.elim _ _
  exact h r

/-- The column array at an index is the score of the index's layer and query. -/
theorem bestColumn_apply (Q : S4x256x1024.Idx → EReal) (G : S4x51200x1024.Idx → EReal) (i : S4x256x1.Idx) :
    Cosine.bestColumn Q G i = Cosine.best Q G (i 0) (i 1) := rfl

/-- A score is the maximum of the query's similarities from −∞. -/
theorem best_def (Q : S4x256x1024.Idx → EReal) (G : S4x51200x1024.Idx → EReal) (l : Fin 4) (r : Fin 256) :
    Cosine.best Q G l r = (Finset.univ : Finset (Fin 51200)).fold max Cosine.start (Cosine.sims Q G l r) := rfl

/-- WHAT A LAYER'S LAST POINT WRITES BACK: the layer's column of scores. -/
theorem flushed_eq (c : Dev nD) (t : Fin cfg0.N) (hf : (cfg0.win 2).flush t = true) :
    (dats m 0 c).flushed 2 t = ((cfg0.win 2).blk t).view.read (Elt Ideal) (Cosine.bestColumn (Q m c) (G m c)) := by
  have h49 : t.val % 50 = 49 := (flush0_2 t).mp hf
  have hN : t.val < 200 := lt_of_lt_of_eq t.isLt (show cfg0.N = 200 from N_0)
  have hl : t.val / 50 < 4 := by omega
  obtain ⟨-, -, -, -, -, -, e0, e1, e2⟩ := idx_facts t
  show (cfg0.win 2).cut (grid0.coords t) ((dats m 0 c).after 2 t) = _
  rw [after0_2]
  refine column_ext _ _ fun r => ?_
  rw [View.read_apply, bestColumn_apply]
  refine (running m c t.val t.isLt ⟨t.val / 50, hl⟩ rfl r).trans ?_
  rw [maxBelow_of_le _ _ (by omega : 51200 ≤ 1024 * (t.val % 50) + 1024), ← best_def]
  have ha : (((cfg0.win 2).blk t).view.emb (ix3 (0 : Fin 1) r (0 : Fin 1)) 0 : Fin 4) = ⟨t.val / 50, hl⟩ :=
    Fin.ext (by
      show win0_2.index t (0 : Fin 3) * 1 + 1 * (0 : Fin 1).val = t.val / 50
      rw [e0]; simp)
  have hb : (((cfg0.win 2).blk t).view.emb (ix3 (0 : Fin 1) r (0 : Fin 1)) 1 : Fin 256) = r :=
    Fin.ext (by
      show win0_2.index t (1 : Fin 3) * 256 + 1 * r.val = r.val
      rw [e1]; omega)
  rw [ha, hb]
  exact (cast_eq _ _).symm

/-- An index of the array is in point `t`'s block iff each coordinate is in the block's range on its axis. -/
theorem mem_blk (t : Fin cfg0.N) (i : S4x256x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v0).slice (win0_2.rect t)).set ↔ _
  rw [View.set_slice_whole, Rect.mem_set_unit]
  exact Iff.rfl

/-- Every entry of the array is in the block some layer's last point writes back. -/
theorem cover (i : S4x256x1.Idx) : ∃ t : Fin cfg0.N, (cfg0.win 2).flush t = true ∧ i ∈ ((cfg0.win 2).blk t).view.set := by
  have h0 : (i 0).val < 4 := (i 0).isLt
  have h1 : (i 1).val < 256 := (i 1).isLt
  have h2 : (i 2).val < 1 := (i 2).isLt
  have hN : cfg0.N = 200 := N_0
  let t : Fin cfg0.N := ⟨50 * (i 0).val + 49, by rw [hN]; omega⟩
  have ht : t.val = 50 * (i 0).val + 49 := rfl
  obtain ⟨-, -, -, -, -, -, e0, e1, e2⟩ := idx_facts t
  refine ⟨t, (flush0_2 t).mpr (by rw [ht]; omega), ?_⟩
  rw [mem_blk]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 256 ≤ (i 1).val ∧ (i 1).val < win0_2.index t (1 : Fin 3) * 256 + 256; rw [e1]; omega
  | ⟨2, _⟩ => show win0_2.index t (2 : Fin 3) * 1 ≤ (i 2).val ∧ (i 2).val < win0_2.index t (2 : Fin 3) * 1 + 1; rw [e2]; omega

/-- THE OUTPUT ARRAY after the run: the 4 × 256 × 1 array of scores. -/
theorem final (c : Dev nD) : (dats m 0 c).arrAt 2 cfg0.N = Cosine.bestColumn (Q m c) (G m c) :=
  (dats m 0 c).arrAt_eq_of_cover 2 (Cosine.bestColumn (Q m c) (G m c)) (flushed_eq m c) (cover)

end Cert.KernelIdeal.FinalArray

end
-- ==== Proof.Tail.lean ====
/-
  From the table of scores to the anomaly map.

  Both programs finish alike: the 4 × 256 table of scores is summed over the four layers (from zero), divided by 4,
  subtracted from 1, and the 256 results are laid out as a 1 × 1 × 16 × 16 map. That is ONE function of the table; the
  two programs apply it to tables that are shown equal, so it is never opened. The shape facts its operations carry
  are parameters: each program supplies its own statements of the same facts.
-/
import Idealize.ShloMosaic.PureOps.Ideal.Laws
import Idealize.ShloMosaic.Lib.Pipeline.Value

noncomputable section

namespace Cert.Tail

open Idealize.ShloMosaic

/-- One minus the mean over the layers, as the 16 × 16 map. -/
def finish (h1 : (⟨2, ![4, 256]⟩ : Shape).ReducesTo [0] ⟨1, ![256]⟩) (h2 : 0 < (⟨0, ![]⟩ : Shape).numel)
    (h3 : (⟨0, ![]⟩ : Shape).BroadcastsInDim ⟨1, ![256]⟩ (![] : Fin 0 → Fin 1))
    (h4 : (⟨1, ![256]⟩ : Shape).ShapeCasts ⟨4, ![1, 1, 16, 16]⟩)
    (X : FVec Ideal ⟨2, ![4, 256]⟩ .f32) : FVec Ideal ⟨4, ![1, 1, 16, 16]⟩ .f32 :=
  shapeCast _ (subf (broadcastInDim ⟨1, ![256]⟩ ![] h3 (constant (F := Ideal) ⟨0, ![]⟩ .f32 0x3F800000#32))
    (Host.divf (F := Ideal) (Host.reduceAdd (F := Ideal) X (constant (F := Ideal) ⟨0, ![]⟩ .f32 0x00000000#32) h1 h2)
      (broadcastInDim ⟨1, ![256]⟩ ![] h3 (constant (F := Ideal) ⟨0, ![]⟩ .f32 0x40800000#32)))) h4

end Cert.Tail

end
-- ==== Proof.KernelRun.lean ====
/-
  The kernel's run, read back: its result is the anomaly map of the specification's scores.

  After the region the output array holds every query's score; the host operations that follow drop the array's unit
  axis — the 4 × 256 × 1 array re-cut as the 4 × 256 table has the same entries at the same row-major positions — and
  apply the shared finish to it.
-/
import proofs.«154629_j24060406792290_1_alg».proof.Proof.FinalArray
import proofs.«154629_j24060406792290_1_alg».proof.Proof.Tail
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx Cert.KernelIdeal.RunningBest Cert.KernelIdeal.FinalArray
open Idealize.ShloMosaic.Pipeline (Dat)

variable (m : (ℓ : Loc nD τ sig) → Buf (Elt Ideal) ℓ) (ρ : Dev nD → PrngReg)

/-- The column array with its unit axis dropped is the table: entry `(l, r)` sits where `(l, r, 0)` did. -/
theorem column_as_table (Q : S4x256x1024.Idx → EReal) (G : S4x51200x1024.Idx → EReal) :
    shapeCast S4x256 (Cosine.bestColumn Q G) shapeCasts_S4x256x1_S4x256 = Cosine.bestTable Q G := by
  funext i
  obtain ⟨l, r, rfl⟩ : ∃ (l : Fin 4) (r : Fin 256), i = ix2 l r := ⟨i 0, i 1, eq_ix2 i⟩
  refine (shapeCast_apply (Cosine.bestColumn Q G) shapeCasts_S4x256x1_S4x256 (ix2 l r) (ix3 l r (0 : Fin 1)) ?_).trans rfl
  rw [Shape.rowMajor_val_three, Shape.rowMajor_val_two]
  show (l.val * 256 + r.val) * 1 + 0 = l.val * 256 + r.val
  omega

/-- The result buffer is none of the region's arrays. -/
theorem v7_rest : main_v7 ∈ Pipeline.restRefs sig (cfgs 0).spec := by decide

/-- What the operations after the region leave in the result buffer. -/
theorem tail_eq (c : Dev nD) :
    Pipeline.afterTail₀ cfgs (dats m) 0 (V0 m) [hostOps1] c main_v7
      = Cert.Tail.finish reducesTo_S4x256_S256_d0 h_S_ bcast_S_S256 shapeCasts_S256_S1x1x16x16 (Cosine.bestTable (Q m c) (G m c)) := by
  have hA : Pipeline.withArrays spec0 c (V0 m c) (fun w => (dats m 0 c).arrAt w cfg0.N) (Proc.devRef .tc main_v0)
      = Cosine.bestColumn (Q m c) (G m c) :=
    (Pipeline.withArrays_arr spec0 launch0.win.arr_inj c _ _ 2).trans (final m c)
  unfold Pipeline.afterTail₀
  show StableHlo.after hostOps1 _ (Proc.devRef .tc main_v7) = _
  after_results
  rw [hA]
  show Cert.Tail.finish reducesTo_S4x256_S256_d0 h_S_ bcast_S_S256 shapeCasts_S256_S1x1x16x16
      (shapeCast S4x256 (Cosine.bestColumn (Q m c) (G m c)) shapeCasts_S4x256x1_S4x256) = _
  rw [column_as_table]

/-- THE KERNEL'S RUN: every weakly fair execution terminates with the result at the finish of the scores and the
    arguments unchanged. -/
theorem run : θ_run defs (onTc (τ := τ) (main (F := Ideal))) ⟨m, fun _ => 0, ρ⟩ fun r => ∀ c : Dev nD,
      r.2.mem ((c : Thread nD τ).loc main_v7)
        = Cert.Tail.finish reducesTo_S4x256_S256_d0 h_S_ bcast_S_S256 shapeCasts_S256_S1x1x16x16 (Cosine.bestTable (Q m c) (G m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v7 v7_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.ReferenceBest.lean ====
/-
  The reference's table of scores is the specification's.

  The reference brings every row of the queries and of the gallery to unit length (square, sum along the row, square
  root, floor, divide), contracts the two over the 1024 coordinates layer by layer — entry `(l, r, j)` is the cosine
  similarity of query `(l, r)` and gallery row `(l, j)` — and takes, for each `(l, r)`, the maximum over all 51200
  `j` from −∞. Every stage but the last is read at an index by the generated lemmas; the last is a one-axis reduction
  with a commutative, associative body, read as a maximum over that axis's coordinates.
-/
import proofs.«154629_j24060406792290_1_alg».proof.Proof.Gen.ReferenceIdeal.Read
import proofs.«154629_j24060406792290_1_alg».proof.Proof.Cosine

noncomputable section

open scoped BigOperators

namespace Cert.ReferenceIdeal.RefBest

open Cert.ReferenceIdeal Cert.ReferenceIdeal.Gen Cert.ReferenceIdeal.Read Idealize.ShloMosaic Idealize.ShloMosaic.ValueIdx

/-- The reference's queries at unit length. -/
theorem qunit_apply (x0 : (⟨S4x256x1024, .f32⟩ : BufTy).Contents (Elt Ideal)) (l : Fin 4) (r : Fin 256) (d : Fin 1024) :
    val_main_v4 (F := Ideal) x0 (ix3 l r d) = Cosine.unit (Cosine.qrow x0 l r) d := by
  have e : ∀ k : Fin 1024, idx_main_call0_v1 (idx_main_call0_v2 (idx_main_v3 (ix3 l r d))) k = ix3 l r k := fun k =>
    funext fun a => Fin.ext (by match a with | ⟨0, _⟩ => rfl | ⟨1, _⟩ => rfl | ⟨2, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- The reference's gallery at unit length. -/
theorem gunit_apply (x1 : (⟨S4x51200x1024, .f32⟩ : BufTy).Contents (Elt Ideal)) (l : Fin 4) (j : Fin 51200) (d : Fin 1024) :
    val_main_v9 (F := Ideal) x1 (ix3 l j d) = Cosine.unit (Cosine.grow x1 l j) d := by
  have e : ∀ k : Fin 1024, idx_main_call1_v1 (idx_main_call1_v2 (idx_main_v8 (ix3 l j d))) k = ix3 l j k := fun k =>
    funext fun a => Fin.ext (by match a with | ⟨0, _⟩ => rfl | ⟨1, _⟩ => rfl | ⟨2, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def, Ideal.mulf_def,
    Ideal.ofBits_def, Ideal.ofBits_zero_f32, zero_add]
  rfl

/-- The contraction's entry `(l, r, j)` is the cosine similarity of query `(l, r)` and gallery row `(l, j)`. -/
theorem sim_apply (x0 : (⟨S4x256x1024, .f32⟩ : BufTy).Contents (Elt Ideal)) (x1 : (⟨S4x51200x1024, .f32⟩ : BufTy).Contents (Elt Ideal))
    (l : Fin 4) (r : Fin 256) (j : Fin 51200) :
    val_main_v10 (F := Ideal) x0 x1 (ix3 l r j) = Cosine.sims x0 x1 l r j := by
  rw [val_main_v10_apply]
  show _ = ∑ d : Fin 1024, Cosine.unit (Cosine.qrow x0 l r) d * Cosine.unit (Cosine.grow x1 l j) d
  refine Finset.sum_congr rfl fun d _ => ?_
  have el : lidx_main_v10 (ix3 l r j) d = ix3 l r d :=
    funext fun a => Fin.ext (by match a with | ⟨0, _⟩ => rfl | ⟨1, _⟩ => rfl | ⟨2, _⟩ => rfl)
  have er : ridx_main_v10 (ix3 l r j) d = ix3 l j d :=
    funext fun a => Fin.ext (by match a with | ⟨0, _⟩ => rfl | ⟨1, _⟩ => rfl | ⟨2, _⟩ => rfl)
  rw [el, er, qunit_apply, gunit_apply]

/-- The last axis of the similarities is the one the maximum runs over. -/
theorem reduces : S4x256x51200.Reduces [2] S4x256 := by decide

/-- THE REFERENCE'S TABLE: at `(l, r)` the largest similarity of query `(l, r)` over its layer's gallery, from −∞. -/
theorem best_eq (x0 : (⟨S4x256x1024, .f32⟩ : BufTy).Contents (Elt Ideal)) (x1 : (⟨S4x51200x1024, .f32⟩ : BufTy).Contents (Elt Ideal)) :
    val_main_v11 (F := Ideal) x0 x1 = Cosine.bestTable x0 x1 := by
  funext i
  obtain ⟨l, r, rfl⟩ : ∃ (l : Fin 4) (r : Fin 256), i = ix2 l r := ⟨i 0, i 1, eq_ix2 i⟩
  unfold val_main_v11
  refine (Host.reduce_eq_fold_single FloatOps.maximumf _ _ reducesTo_S4x256x51200_S4x256_d2 reduces h_S_ (ix2 l r)).trans ?_
  show (Finset.univ : Finset (Fin 51200)).fold max Cosine.start _ = (Finset.univ : Finset (Fin 51200)).fold max Cosine.start (Cosine.sims x0 x1 l r)
  refine congrArg ((Finset.univ : Finset (Fin 51200)).fold max Cosine.start) (funext fun j => ?_)
  have ej : reduces.lift (ix2 l r) j = ix3 l r j :=
    funext fun a => Fin.ext (by match a with | ⟨0, _⟩ => rfl | ⟨1, _⟩ => rfl | ⟨2, _⟩ => rfl)
  show val_main_v10 (F := Ideal) x0 x1 (reduces.lift (ix2 l r) j) = _
  rw [ej]
  exact sim_apply x0 x1 l r j

end Cert.ReferenceIdeal.RefBest

end
-- ==== Proof.lean ====
/- Nearest neighbour by cosine similarity, scored per patch: the kernel against its reference, over the extended reals.

   Both programs take 4 layers of 256 query rows and 4 layers of 51200 gallery rows, 1024 numbers each. A row is
   brought to unit length by dividing it by the larger of its length and a small floor; the similarity of a query and a
   gallery row of the same layer is the inner product of their unit-length forms; a query's score is its largest
   similarity over the layer's gallery, a maximum started from −∞; the result is one minus the mean of the four layers'
   scores, laid out as a 16 × 16 map (Proof/Cosine.lean states the scores, Proof/Tail.lean the finish).

   The reference computes the whole 256 × 51200 table of similarities per layer and reduces it once. The kernel walks
   the gallery in 50 tiles of 1024 rows: at each tile it computes the queries' similarities to the tile's rows, takes
   each query's best over the tile, and keeps the larger of that and what it had, resetting to −∞ at a layer's first
   tile (it also narrows the unit-length rows to a shorter float format before multiplying, which over the extended
   reals changes nothing). The one law that joins the two is that a maximum over 51200 values is the running maximum
   over 50 consecutive tiles of the tiles' maxima (Proof/LibTiledMax.lean) — true of any values, so the finiteness of
   the inputs is never used. The finish is the same operations in both programs and is applied, unopened, to equal
   tables.

   The three frames: the kernel's two are the generated frame certificates; the reference's is its generated run with
   the result dropped. The idealization rewrote nothing, so `preserves` is `True`. -/
import proofs.«154629_j24060406792290_1_alg».proof.Defs
import proofs.«154629_j24060406792290_1_alg».proof.Proof.Gen.Kernel
import proofs.«154629_j24060406792290_1_alg».proof.Proof.Gen.Kernel.Skeleton
import proofs.«154629_j24060406792290_1_alg».proof.Proof.Gen.Kernel.Launch
import proofs.«154629_j24060406792290_1_alg».proof.Proof.Gen.Kernel.Points
import proofs.«154629_j24060406792290_1_alg».proof.Proof.Gen.Kernel.Frame
import proofs.«154629_j24060406792290_1_alg».proof.Proof.Gen.KernelIdeal
import proofs.«154629_j24060406792290_1_alg».proof.Proof.Gen.KernelIdeal.Skeleton
import proofs.«154629_j24060406792290_1_alg».proof.Proof.Gen.KernelIdeal.Launch
import proofs.«154629_j24060406792290_1_alg».proof.Proof.Gen.KernelIdeal.Points
import proofs.«154629_j24060406792290_1_alg».proof.Proof.Gen.KernelIdeal.Frame
import proofs.«154629_j24060406792290_1_alg».proof.Proof.Gen.ReferenceIdeal
import proofs.«154629_j24060406792290_1_alg».proof.Proof.Gen.Pre_finite_inputs
import proofs.«154629_j24060406792290_1_alg».proof.Proof.Gen.ReferenceIdeal.Read
import proofs.«154629_j24060406792290_1_alg».proof.Proof.KernelRun
import proofs.«154629_j24060406792290_1_alg».proof.Proof.ReferenceBest
import Idealize.ShloMosaic.Adequacy
import Idealize.ShloMosaic.Init

noncomputable section

namespace Cert.Proof

open Idealize.ShloMosaic Idealize.ShloMosaic.TcCoe Idealize.SL.Sem

/-- The reference's result is the finish of the specification's table of scores. -/
theorem ref_result (x0 : (⟨Cert.ReferenceIdeal.S4x256x1024, .f32⟩ : BufTy).Contents (Elt Ideal))
    (x1 : (⟨Cert.ReferenceIdeal.S4x51200x1024, .f32⟩ : BufTy).Contents (Elt Ideal)) :
    Cert.ReferenceIdeal.Read.val_main_v17 (F := Ideal) x0 x1
      = Cert.Tail.finish Cert.ReferenceIdeal.Gen.reducesTo_S4x256_S256_d0 Cert.ReferenceIdeal.Gen.h_S_ Cert.ReferenceIdeal.Gen.bcast_S_S256
          Cert.ReferenceIdeal.Gen.shapeCasts_S256_S1x1x16x16 (Cosine.bestTable x0 x1) := by
  rw [← Cert.ReferenceIdeal.RefBest.best_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree, both runs end with the finish of one table of scores. -/
theorem algebraic : Cert.algebraic_KernelIdeal_ReferenceIdeal := by
  intro m ρ m' ρ' _ hagree
  refine ⟨fun c => Cert.Tail.finish Cert.KernelIdeal.Gen.reducesTo_S4x256_S256_d0 Cert.KernelIdeal.Gen.h_S_ Cert.KernelIdeal.Gen.bcast_S_S256
      Cert.KernelIdeal.Gen.shapeCasts_S256_S1x1x16x16
      (Cosine.bestTable (Cert.KernelIdeal.RunningBest.Q m c) (Cert.KernelIdeal.RunningBest.G m c)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v17_eq _ _).trans (ref_result _ _)).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
